-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x256 : Shape := ⟨3, ![1, 1024, 256]⟩
abbrev S_ : Shape := ⟨0, ![]⟩

class Facts : Prop where
  bcast_S_S1x1024x256 : S_.BroadcastsInDim S1x1024x256 (![] : Fin 0 → Fin S1x1024x256.rank)
  reducesTo_S1x1024x256_S_d0_1_2 : S1x1024x256.ReducesTo [0, 1, 2] S_
  h_S_ : 0 < S_.numel

variable [Facts]

def fn {F : FTy → Type} [FloatOps F] (main_arg0 : FVec F S1x1024x256 .f32) (main_arg1 : FVec F S1x1024x256 .f32) : IVec S_ 1 :=
  let main_v0 : FVec F S1x1024x256 .f32 := Host.absf main_arg0
  let main_cst : FVec F S_ .f32 := constant S_ .f32 0x7F800000#32
  let main_v1 : FVec F S1x1024x256 .f32 := broadcastInDim S1x1024x256 ![] bcast_S_S1x1024x256 main_cst
  let main_v2 : IVec S1x1024x256 1 := cmpf .olt main_v0 main_v1
  let main_c : IVec S_ 1 := constantI S_ 1 1#1
  let main_v3 : IVec S_ 1 := (fun x v => Host.reduce IntOp.andi x v reducesTo_S1x1024x256_S_d0_1_2 h_S_) main_v2 main_c
  let main_v4 : FVec F S1x1024x256 .f32 := Host.absf main_arg1
  let main_cst_0 : FVec F S_ .f32 := constant S_ .f32 0x7F800000#32
  let main_v5 : FVec F S1x1024x256 .f32 := broadcastInDim S1x1024x256 ![] bcast_S_S1x1024x256 main_cst_0
  let main_v6 : IVec S1x1024x256 1 := cmpf .olt main_v4 main_v5
  let main_c_1 : IVec S_ 1 := constantI S_ 1 1#1
  let main_v7 : IVec S_ 1 := (fun x v => Host.reduce IntOp.andi x v reducesTo_S1x1024x256_S_d0_1_2 h_S_) main_v6 main_c_1
  let main_v8 : IVec S_ 1 := andi main_v3 main_v7
  main_v8
-- ==== Kernel.lean ====
abbrev S1x1024x256 : Shape := ⟨3, ![1, 1024, 256]⟩
abbrev S1x1024x8x32 : Shape := ⟨4, ![1, 1024, 8, 32]⟩
abbrev S1x8x1024x32 : Shape := ⟨4, ![1, 8, 1024, 32]⟩
abbrev S1x1x1024x32 : Shape := ⟨4, ![1, 1, 1024, 32]⟩
abbrev S1024x32 : Shape := ⟨2, ![1024, 32]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x8x32, .f32⟩
  | .hbm, ⟨3, _⟩ => ⟨S1x8x1024x32, .f32⟩
  | .hbm, ⟨4, _⟩ => ⟨S1x1024x8x32, .f32⟩
  | .hbm, ⟨5, _⟩ => ⟨S1x8x1024x32, .f32⟩
  | .hbm, ⟨6, _⟩ => ⟨S1x8x1024x32, .f32⟩
  | .hbm, ⟨7, _⟩ => ⟨S1x1024x8x32, .f32⟩
  | .hbm, ⟨8, _⟩ => ⟨S1x1024x256, .f32⟩
  | .local _ .vmem, ⟨0, _⟩ => ⟨S1x1x1024x32, .f32⟩
  | .local _ .vmem, ⟨1, _⟩ => ⟨S1x1x1024x32, .f32⟩
  | .local _ .vmem, ⟨2, _⟩ => ⟨S1x1x1024x32, .f32⟩
  | .local _ .vmem, ⟨3, _⟩ => ⟨S1x1x1024x32, .f32⟩
  | .local _ .vmem, ⟨4, _⟩ => ⟨S1x1x1024x32, .f32⟩
  | .local _ .vmem, ⟨5, _⟩ => ⟨S1x1x1024x32, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1024x256_S1x1024x8x32 : S1x1024x256.ShapeCasts S1x1024x8x32
  transposes_S1x1024x8x32_S1x8x1024x32_0_2_1_3 : S1x1024x8x32.Transposes [0, 2, 1, 3] S1x8x1024x32
  inb_S1x1x1024x32_S1x1x1024x32_0_0_0_0 : ∀ a, (![0, 0, 0, 0] : Fin 4 → Nat) a + S1x1x1024x32.size a ≤ S1x1x1024x32.size a
  h_S1x1x1024x32 : 0 < S1x1x1024x32.numel
  shapeCasts_S1x1x1024x32_S1024x32 : S1x1x1024x32.ShapeCasts S1024x32
  bitsLt_bf16_f32 : FTy.bits .bf16 < FTy.bits .f32
  transposes_S1024x32_p1_0_S32x1024 : S1024x32.Transposes [1, 0] S32x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x32_S1x1x1024x32 : S1024x32.ShapeCasts S1x1x1024x32
  transposes_S1x8x1024x32_S1x1024x8x32_0_2_1_3 : S1x8x1024x32.Transposes [0, 2, 1, 3] S1x1024x8x32
  shapeCasts_S1x1024x8x32_S1x1024x256 : S1x1024x8x32.ShapeCasts S1x1024x256
  dot_S1024x32_S32x1024_S1024x1024_1_0_0_1_n_n_wf : DotDims.WF S1024x32 S32x1024 S1024x1024 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x32.size a ≤ S1x8x1024x32.size a
  hwx0_0 : ∀ i : grid0.Coords, EltTy.bits .f32 = 32 ∨ (Rect.block (s := S1x8x1024x32) S1x1x1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x32.size a ≤ S1x8x1024x32.size a
  hwx0_1 : ∀ i : grid0.Coords, EltTy.bits .f32 = 32 ∨ (Rect.block (s := S1x8x1024x32) S1x1x1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x32.size a ≤ S1x8x1024x32.size a
  hwx0_2 : ∀ i : grid0.Coords, EltTy.bits .f32 = 32 ∨ (Rect.block (s := S1x8x1024x32) S1x1x1024x32.size (cc0_transform_2 i) (hinb0_2 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_v1) S1x1x1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x256 : Shape := ⟨3, ![1, 1024, 256]⟩
abbrev S1x1024x8x32 : Shape := ⟨4, ![1, 1024, 8, 32]⟩
abbrev S1x1x1x1024x1x8x1x32 : Shape := ⟨8, ![1, 1, 1, 1024, 1, 8, 1, 32]⟩
abbrev S1x1x4x1024x1x8x1x32 : Shape := ⟨8, ![1, 1, 4, 1024, 1, 8, 1, 32]⟩
abbrev S1x4096x8x32 : Shape := ⟨4, ![1, 4096, 8, 32]⟩
abbrev S1x8x4096x32 : Shape := ⟨4, ![1, 8, 4096, 32]⟩
abbrev S1x8x4096x4096 : Shape := ⟨4, ![1, 8, 4096, 4096]⟩
abbrev S_ : Shape := ⟨0, ![]⟩
abbrev S1x8x4096 : Shape := ⟨3, ![1, 8, 4096]⟩
abbrev S1x8x4096x1 : Shape := ⟨4, ![1, 8, 4096, 1]⟩
abbrev S1x8x4x1024x32 : Shape := ⟨5, ![1, 8, 4, 1024, 32]⟩
abbrev S1x8x1024x32 : Shape := ⟨4, ![1, 8, 1024, 32]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x8x32, .f32⟩
  | .hbm, ⟨3, _⟩ => ⟨S1x1024x8x32, .f32⟩
  | .hbm, ⟨4, _⟩ => ⟨S1x1x1x1024x1x8x1x32, .f32⟩
  | .hbm, ⟨5, _⟩ => ⟨S1x1x4x1024x1x8x1x32, .f32⟩
  | .hbm, ⟨6, _⟩ => ⟨S1x4096x8x32, .f32⟩
  | .hbm, ⟨7, _⟩ => ⟨S1x8x4096x32, .f32⟩
  | .hbm, ⟨8, _⟩ => ⟨S1x1x1x1024x1x8x1x32, .f32⟩
  | .hbm, ⟨9, _⟩ => ⟨S1x1x4x1024x1x8x1x32, .f32⟩
  | .hbm, ⟨10, _⟩ => ⟨S1x4096x8x32, .f32⟩
  | .hbm, ⟨11, _⟩ => ⟨S1x8x4096x32, .f32⟩
  | .hbm, ⟨12, _⟩ => ⟨S1x8x4096x4096, .f32⟩
  | .hbm, ⟨13, _⟩ => ⟨S_, .f32⟩
  | .hbm, ⟨14, _⟩ => ⟨S1x8x4096x4096, .f32⟩
  | .hbm, ⟨15, _⟩ => ⟨S1x8x4096x4096, .f32⟩
  | .hbm, ⟨16, _⟩ => ⟨S_, .f32⟩
  | .hbm, ⟨17, _⟩ => ⟨S1x8x4096, .f32⟩
  | .hbm, ⟨18, _⟩ => ⟨S_, .f32⟩
  | .hbm, ⟨19, _⟩ => ⟨S1x8x4096, .f32⟩
  | .hbm, ⟨20, _⟩ => ⟨S1x8x4096, .f32⟩
  | .hbm, ⟨21, _⟩ => ⟨S1x8x4096x1, .f32⟩
  | .hbm, ⟨22, _⟩ => ⟨S1x8x4096x4096, .f32⟩
  | .hbm, ⟨23, _⟩ => ⟨S1x8x4096x4096, .f32⟩
  | .hbm, ⟨24, _⟩ => ⟨S1x8x4096x4096, .f32⟩
  | .hbm, ⟨25, _⟩ => ⟨S_, .f32⟩
  | .hbm, ⟨26, _⟩ => ⟨S1x8x4096, .f32⟩
  | .hbm, ⟨27, _⟩ => ⟨S1x8x4096x1, .f32⟩
  | .hbm, ⟨28, _⟩ => ⟨S1x8x4096x4096, .f32⟩
  | .hbm, ⟨29, _⟩ => ⟨S1x8x4096x4096, .f32⟩
  | .hbm, ⟨30, _⟩ => ⟨S1x8x4096x32, .f32⟩
  | .hbm, ⟨31, _⟩ => ⟨S1x8x4x1024x32, .f32⟩
  | .hbm, ⟨32, _⟩ => ⟨S_, .f32⟩
  | .hbm, ⟨33, _⟩ => ⟨S1x8x1024x32, .f32⟩
  | .hbm, ⟨34, _⟩ => ⟨S_, .f32⟩
  | .hbm, ⟨35, _⟩ => ⟨S1x8x1024x32, .f32⟩
  | .hbm, ⟨36, _⟩ => ⟨S1x8x1024x32, .f32⟩
  | .hbm, ⟨37, _⟩ => ⟨S1x1024x8x32, .f32⟩
  | .hbm, ⟨38, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  shapeCasts_S1x1024x256_S1x1024x8x32 : S1x1024x256.ShapeCasts S1x1024x8x32
  shapeCasts_S1x1024x8x32_S1x1x1x1024x1x8x1x32 : S1x1024x8x32.ShapeCasts S1x1x1x1024x1x8x1x32
  bcast_S1x1x1x1024x1x8x1x32_S1x1x4x1024x1x8x1x32_0_1_2_3_4_5_6_7 : S1x1x1x1024x1x8x1x32.BroadcastsInDim S1x1x4x1024x1x8x1x32 (![0, 1, 2, 3, 4, 5, 6, 7] : Fin 8 → Fin S1x1x4x1024x1x8x1x32.rank)
  shapeCasts_S1x1x4x1024x1x8x1x32_S1x4096x8x32 : S1x1x4x1024x1x8x1x32.ShapeCasts S1x4096x8x32
  transposes_S1x4096x8x32_S1x8x4096x32_0_2_1_3 : S1x4096x8x32.Transposes [0, 2, 1, 3] S1x8x4096x32
  bcast_S_S1x8x4096x4096 : S_.BroadcastsInDim S1x8x4096x4096 (![] : Fin 0 → Fin S1x8x4096x4096.rank)
  reducesTo_S1x8x4096x4096_S1x8x4096_d3 : S1x8x4096x4096.ReducesTo [3] S1x8x4096
  h_S_ : 0 < S_.numel
  bcast_S_S1x8x4096 : S_.BroadcastsInDim S1x8x4096 (![] : Fin 0 → Fin S1x8x4096.rank)
  bcast_S1x8x4096_S1x8x4096x1_0_1_2 : S1x8x4096.BroadcastsInDim S1x8x4096x1 (![0, 1, 2] : Fin 3 → Fin S1x8x4096x1.rank)
  bcast_S1x8x4096x1_S1x8x4096x4096_0_1_2_3 : S1x8x4096x1.BroadcastsInDim S1x8x4096x4096 (![0, 1, 2, 3] : Fin 4 → Fin S1x8x4096x4096.rank)
  shapeCasts_S1x8x4096x32_S1x8x4x1024x32 : S1x8x4096x32.ShapeCasts S1x8x4x1024x32
  reducesTo_S1x8x4x1024x32_S1x8x1024x32_d2 : S1x8x4x1024x32.ReducesTo [2] S1x8x1024x32
  bcast_S_S1x8x1024x32 : S_.BroadcastsInDim S1x8x1024x32 (![] : Fin 0 → Fin S1x8x1024x32.rank)
  transposes_S1x8x1024x32_S1x1024x8x32_0_2_1_3 : S1x8x1024x32.Transposes [0, 2, 1, 3] S1x1024x8x32
  shapeCasts_S1x1024x8x32_S1x1024x256 : S1x1024x8x32.ShapeCasts S1x1024x256
  dot_S1x8x4096x32_S1x8x4096x32_S1x8x4096x4096_3_3_2_2_01_01_wf : DotDims.WF S1x8x4096x32 S1x8x4096x32 S1x8x4096x4096 [3] [3] [2] [2] [0, 1] [0, 1]
  dot_S1x8x4096x4096_S1x8x4096x32_S1x8x4096x32_3_2_2_3_01_01_wf : DotDims.WF S1x8x4096x4096 S1x8x4096x32 S1x8x4096x32 [3] [2] [2] [3] [0, 1] [0, 1]

variable [Facts₀]

def dot_S1x8x4096x32_S1x8x4096x32_S1x8x4096x4096_3_3_2_2_01_01 : DotDims S1x8x4096x32 S1x8x4096x32 S1x8x4096x4096 where
  lhsContracting := [3]
  rhsContracting := [3]
  lhsNonContracting := [2]
  rhsNonContracting := [2]
  lhsBatch := [0, 1]
  rhsBatch := [0, 1]
  wf := dot_S1x8x4096x32_S1x8x4096x32_S1x8x4096x4096_3_3_2_2_01_01_wf
def dot_S1x8x4096x4096_S1x8x4096x32_S1x8x4096x32_3_2_2_3_01_01 : DotDims S1x8x4096x4096 S1x8x4096x32 S1x8x4096x32 where
  lhsContracting := [3]
  rhsContracting := [2]
  lhsNonContracting := [2]
  rhsNonContracting := [3]
  lhsBatch := [0, 1]
  rhsBatch := [0, 1]
  wf := dot_S1x8x4096x4096_S1x8x4096x32_S1x8x4096x32_3_2_2_3_01_01_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowSoftmax.lean ====
/-
  A row-wise softmax of an [a, b] vector of extended reals, read at one index.

  The kernel spelling: take each row's maximum (a fold of `max` from a starting word's value), view the a maxima as an
  [a, 1] column and repeat it along the second axis, subtract, exponentiate, sum each row, repeat the totals the same way,
  and divide.  At (r, c) that is exp (S r c − M r) over the sum over c' of exp (S r c' − M r), with M r the fold of `max`
  over row r.
-/
import proofs.«169422_j56435870269919_1_alg».proof.Proof.LibRowOps

noncomputable section

namespace Cert.RowSoftmax

open Idealize.ShloMosaic Idealize.ShloMosaic.ValueIdx Cert.RowOps

variable {a b : Nat}

/-- The maximum of row `r`, from the value of the starting word. -/
def rowMax (S : FVec Ideal ⟨2, ![a, b]⟩ .f32) (start : BitVec 32) (r : Fin a) : EReal :=
  (Finset.univ : Finset (Fin b)).fold max (Ideal.ofBits .f32 start) (fun c => S (ix2 r c))

variable (S : FVec Ideal ⟨2, ![a, b]⟩ .f32) (start zero : BitVec 32)
  (hr : (⟨2, ![a, b]⟩ : Shape).Reduces [1] ⟨1, ![a]⟩) (hφ : FKind.Formats .f32)
  (hm : start = FKind.maximumf.neutral .f32 hφ) (hz : zero = FKind.add.neutral .f32 hφ)
  (hc : (⟨1, ![a]⟩ : Shape).ShapeCasts ⟨2, ![a, 1]⟩) (hb : (⟨2, ![a, 1]⟩ : Shape).Broadcasts ⟨2, ![a, b]⟩)

/-- The shifted and exponentiated rows, at (r, c). -/
theorem shifted_apply (r : Fin a) (c : Fin b) :
    exp (subf S (broadcastTo ⟨2, ![a, b]⟩ (shapeCast ⟨2, ![a, 1]⟩
        (multiReduction .maximumf [1] ⟨1, ![a]⟩ S start hr hφ hm) hc) hb)) (ix2 r c)
      = Ideal.exp (S (ix2 r c) - rowMax S start r) := by
  show Ideal.exp (S (ix2 r c) - broadcastTo ⟨2, ![a, b]⟩ (shapeCast ⟨2, ![a, 1]⟩
        (multiReduction .maximumf [1] ⟨1, ![a]⟩ S start hr hφ hm) hc) hb (ix2 r c)) = _
  rw [spread_apply, column_apply, rowMax_apply]
  rfl

/-- The normalised rows, at (r, c). -/
theorem softmax_apply (r : Fin a) (c : Fin b) :
    divf (exp (subf S (broadcastTo ⟨2, ![a, b]⟩ (shapeCast ⟨2, ![a, 1]⟩
          (multiReduction .maximumf [1] ⟨1, ![a]⟩ S start hr hφ hm) hc) hb)))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb) (ix2 r c)
      = Ideal.div (Ideal.exp (S (ix2 r c) - rowMax S start r))
          (∑ c' : Fin b, Ideal.exp (S (ix2 r c') - rowMax S start r)) := by
  show Ideal.div (exp (subf S (broadcastTo ⟨2, ![a, b]⟩ (shapeCast ⟨2, ![a, 1]⟩
          (multiReduction .maximumf [1] ⟨1, ![a]⟩ S start hr hφ hm) hc) hb)) (ix2 r c))
        (broadcastTo ⟨2, ![a, b]⟩ (shapeCast ⟨2, ![a, 1]⟩
          (multiReduction .add [1] ⟨1, ![a]⟩
            (exp (subf S (broadcastTo ⟨2, ![a, b]⟩ (shapeCast ⟨2, ![a, 1]⟩
              (multiReduction .maximumf [1] ⟨1, ![a]⟩ S start hr hφ hm) hc) hb))) zero hr hφ hz) hc) hb (ix2 r c)) = _
  rw [spread_apply, column_apply, rowSum_apply, shifted_apply]
  exact congrArg (Ideal.div _) (Finset.sum_congr rfl fun c' _ => shifted_apply S start hr hφ hm hc hb r c')

end Cert.RowSoftmax

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.LibSoftmaxRepeat.lean ====
/-
  A softmax-weighted sum over keys that are repeated.

  `wsum b s v` is the softmax-weighted sum of the values `v` under the scores `s`: with `M` the running maximum of the
  scores from `b`, it is `∑ j, (exp (s j − M) / ∑ j', exp (s j' − M)) · v j` on the extended reals.  `wsumHost b z s v` is the
  same with the folded maximum compared once more with `b` and the normaliser started from `z`.

  When the scores and values are reals and there is at least one key, the maximum is a real, every exponential is a positive
  real and so is their sum, and the weighted sum is the coercion of the real weighted sum (`wsum_real`).  If every key is
  repeated `T` times (the index of the repeated family reduces to the index of the family, and each of the `T` tiles of the
  repeated index reduces onto it), the maximum does not change, the normaliser becomes `T` times larger and each term occurs
  `T` times, so the weighted sum does not change (`wsum_repeat`).  The mean of four equal reals is that real (`mean_four`).
-/
import Mathlib.Data.Finset.Fold
import Mathlib.Data.Finset.Max
import Mathlib.Tactic.FieldSimp
import Mathlib.Tactic.Ring
import Idealize.ShloMosaic.PureOps.Ideal.Laws
import proofs.«169422_j56435870269919_1_alg».proof.Proof.LibTiledSum

open scoped BigOperators

noncomputable section

namespace Cert.Attn

open Idealize.ShloMosaic

/-- Softmax-weighted sum over `n` keys: scores `s`, values `v`, the maximum folded from `b`. -/
def wsum {n : Nat} (b : EReal) (s v : Fin n → EReal) : EReal :=
  ∑ j : Fin n, Ideal.div (Ideal.exp (s j - (Finset.univ : Finset (Fin n)).fold max b s))
      (∑ j' : Fin n, Ideal.exp (s j' - (Finset.univ : Finset (Fin n)).fold max b s)) * v j

/-- The same in the host's spelling: the folded maximum is once more compared with `b`, and the normaliser is a sum started
    from `z`. -/
def wsumHost {n : Nat} (b z : EReal) (s v : Fin n → EReal) : EReal :=
  ∑ j : Fin n, Ideal.div (Ideal.exp (s j - max b ((Finset.univ : Finset (Fin n)).fold max b s)))
      (z + ∑ j' : Fin n, Ideal.exp (s j' - max b ((Finset.univ : Finset (Fin n)).fold max b s))) * v j

/-! ### Sums and maxima of coerced reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- With the maximum started at the bottom and the normaliser started at zero, the host's spelling of the
    weighted sum is the plain one: the extra comparison with the bottom and the extra zero change nothing. -/
theorem wsumHost_bot_zero {n : Nat} (s v : Fin n → EReal) : wsumHost ⊥ 0 s v = wsum ⊥ s v := by
  simp only [wsumHost, wsum, max_bot_left, zero_add]

/-- The running maximum, started at the bottom, of a nonempty finite family of reals is a real (the
    greatest of them). -/
theorem fold_max_real {n : Nat} (hn : 0 < n) (σ : Fin n → ℝ) :
    ∃ μ : ℝ, (Finset.univ : Finset (Fin n)).fold max ⊥ (fun j => ((σ j : ℝ) : EReal)) = (μ : EReal) := by
  obtain ⟨j0, -, hj0⟩ :=
    Finset.exists_max_image (Finset.univ : Finset (Fin n)) σ ⟨⟨0, hn⟩, Finset.mem_univ _⟩
  refine ⟨σ j0, le_antisymm ?_ ?_⟩
  · rw [Finset.fold_max_le]
    exact ⟨bot_le, fun j hj => EReal.coe_le_coe_iff.mpr (hj0 j hj)⟩
  · rw [Finset.le_fold_max]
    exact Or.inr ⟨j0, Finset.mem_univ _, le_rfl⟩

/-- Repeating a family along a surjection of the index does not change its running maximum: every repeated
    term is a term of the family, and every term of the family is repeated at least once. -/
theorem fold_max_comp {n N : Nat} (m : Fin N → Fin n) (hm : Function.Surjective m) (b : EReal)
    (f : Fin n → EReal) :
    (Finset.univ : Finset (Fin N)).fold max b (fun K => f (m K))
      = (Finset.univ : Finset (Fin n)).fold max b f := by
  refine le_antisymm ?_ ?_
  · rw [Finset.fold_max_le]
    refine ⟨?_, fun K _ => ?_⟩
    · rw [Finset.le_fold_max]; exact Or.inl le_rfl
    · rw [Finset.le_fold_max]; exact Or.inr ⟨m K, Finset.mem_univ _, le_rfl⟩
  · rw [Finset.fold_max_le]
    refine ⟨?_, fun j _ => ?_⟩
    · rw [Finset.le_fold_max]; exact Or.inl le_rfl
    · obtain ⟨K, rfl⟩ := hm j
      rw [Finset.le_fold_max]; exact Or.inr ⟨K, Finset.mem_univ _, le_rfl⟩

/-! ### The weighted sum of reals is a real -/

/-- For real scores with real maximum `μ` and real values, the softmax-weighted sum is the real number
    `∑ j, exp (σ j − μ) / (∑ j', exp (σ j' − μ)) · ν j`: each exponential is a real, their sum is a nonzero
    real, so each quotient and each product is a real. -/
theorem wsum_real {n : Nat} (σ ν : Fin n → ℝ) (μ : ℝ)
    (hμ : (Finset.univ : Finset (Fin n)).fold max ⊥ (fun j => ((σ j : ℝ) : EReal)) = (μ : EReal))
    (hΛ : (∑ j : Fin n, Real.exp (σ j - μ)) ≠ 0) :
    wsum ⊥ (fun j => ((σ j : ℝ) : EReal)) (fun j => ((ν j : ℝ) : EReal))
      = ((∑ j : Fin n, Real.exp (σ j - μ) / (∑ j' : Fin n, Real.exp (σ j' - μ)) * ν j : ℝ) : EReal) := by
  have he : ∀ j : Fin n,
      Ideal.exp (((σ j : ℝ) : EReal) - (μ : EReal)) = ((Real.exp (σ j - μ) : ℝ) : EReal) := by
    intro j; rw [← EReal.coe_sub, Ideal.exp_coe]
  have hs : (∑ j' : Fin n, ((Real.exp (σ j' - μ) : ℝ) : EReal))
      = ((∑ j' : Fin n, Real.exp (σ j' - μ) : ℝ) : EReal) := (coe_sum _ _).symm
  unfold wsum
  rw [hμ]
  simp only [he, hs]
  rw [coe_sum Finset.univ (fun j => Real.exp (σ j - μ) / (∑ j' : Fin n, Real.exp (σ j' - μ)) * ν j)]
  refine Finset.sum_congr rfl fun j _ => ?_
  rw [Ideal.div_coe hΛ, ← EReal.coe_mul, ← EReal.coe_mul, mul_one_div]

/-! ### Repeating the keys `T` times, on the reals -/

/-- A sum over `T · n` indices of a function of the index reduced to `Fin n` is `T` times the sum over
    `Fin n`: each tile contributes the whole sum once. -/
theorem sum_repeat {T n N : Nat} (h : T * n = N) (m : Fin N → Fin n)
    (hm : ∀ (r : Fin T) (l : Fin n), m (Cert.TiledSum.tile h r l) = l) (g : Fin n → ℝ) :
    ∑ K : Fin N, g (m K) = (T : ℝ) * ∑ j : Fin n, g j := by
  rw [Cert.TiledSum.sum_tiles h (fun K => g (m K))]
  simp only [hm, Finset.sum_const, Finset.card_univ, Fintype.card_fin, nsmul_eq_mul]

/-- The softmax-weighted sum over keys repeated `T` times is the one over the keys: the normaliser is `T`
    times larger and each term occurs `T` times. -/
theorem real_tiled {T n N : Nat} (h : T * n = N) (hT : 0 < T) (m : Fin N → Fin n)
    (hm : ∀ (r : Fin T) (l : Fin n), m (Cert.TiledSum.tile h r l) = l) (e ν : Fin n → ℝ)
    (hΛ : (∑ j : Fin n, e j) ≠ 0) :
    ∑ K : Fin N, e (m K) / (∑ K' : Fin N, e (m K')) * ν (m K)
      = ∑ j : Fin n, e j / (∑ j' : Fin n, e j') * ν j := by
  have hT' : (T : ℝ) ≠ 0 := by exact_mod_cast hT.ne'
  rw [sum_repeat h m hm e, sum_repeat h m hm (fun j => e j / ((T : ℝ) * ∑ j' : Fin n, e j') * ν j),
    Finset.mul_sum]
  refine Finset.sum_congr rfl fun j _ => ?_
  field_simp

/-- The softmax-weighted sum of real scores and real values (at least one key) is a real. -/
theorem wsum_is_real {n : Nat} (hn : 0 < n) (σ ν : Fin n → ℝ) :
    ∃ x : ℝ, wsum ⊥ (fun j => ((σ j : ℝ) : EReal)) (fun j => ((ν j : ℝ) : EReal)) = (x : EReal) := by
  obtain ⟨μ, hμ⟩ := fold_max_real hn σ
  have hpos : 0 < ∑ j : Fin n, Real.exp (σ j - μ) :=
    Finset.sum_pos (fun j _ => Real.exp_pos _) ⟨⟨0, hn⟩, Finset.mem_univ _⟩
  exact ⟨_, wsum_real σ ν μ hμ hpos.ne'⟩

/-- The softmax-weighted sum over real keys repeated `T` times equals the one over the keys: the maximum is
    unchanged, so both are real weighted sums with the same exponentials, and the real identity above applies. -/
theorem wsum_repeat {T n N : Nat} (h : T * n = N) (hT : 0 < T) (hn : 0 < n) (m : Fin N → Fin n)
    (hm : ∀ (r : Fin T) (l : Fin n), m (Cert.TiledSum.tile h r l) = l) (σ ν : Fin n → ℝ) :
    wsum ⊥ (fun K : Fin N => ((σ (m K) : ℝ) : EReal)) (fun K : Fin N => ((ν (m K) : ℝ) : EReal))
      = wsum ⊥ (fun j : Fin n => ((σ j : ℝ) : EReal)) (fun j : Fin n => ((ν j : ℝ) : EReal)) := by
  obtain ⟨μ, hμ⟩ := fold_max_real hn σ
  have hsurj : Function.Surjective m := fun l => ⟨Cert.TiledSum.tile h ⟨0, hT⟩ l, hm _ _⟩
  have hμ' : (Finset.univ : Finset (Fin N)).fold max ⊥ (fun K => ((σ (m K) : ℝ) : EReal)) = (μ : EReal) := by
    rw [← hμ]
    exact fold_max_comp m hsurj ⊥ (fun j => ((σ j : ℝ) : EReal))
  have hpos : 0 < ∑ j : Fin n, Real.exp (σ j - μ) :=
    Finset.sum_pos (fun j _ => Real.exp_pos _) ⟨⟨0, hn⟩, Finset.mem_univ _⟩
  have hpos' : 0 < ∑ K : Fin N, Real.exp (σ (m K) - μ) :=
    Finset.sum_pos (fun K _ => Real.exp_pos _) ⟨Cert.TiledSum.tile h ⟨0, hT⟩ ⟨0, hn⟩, Finset.mem_univ _⟩
  rw [wsum_real (fun K => σ (m K)) (fun K => ν (m K)) μ hμ' hpos'.ne', wsum_real σ ν μ hμ hpos.ne']
  exact congrArg _ (real_tiled h hT m hm (fun j => Real.exp (σ j - μ)) ν hpos.ne')

/-- The mean of four copies of a real, summed from zero and divided by four, is that real. -/
theorem mean_four (x : ℝ) : Ideal.div (0 + ∑ _r : Fin 4, ((x : ℝ) : EReal)) ((4 : ℝ) : EReal) = (x : EReal) := by
  rw [zero_add, ← coe_sum, Ideal.div_coe (by norm_num : (4 : ℝ) ≠ 0), ← EReal.coe_mul]
  congr 1
  simp only [Finset.sum_const, Finset.card_univ, Fintype.card_fin, nsmul_eq_mul]
  push_cast
  ring

end Cert.Attn

end
-- ==== Proof.Spec.lean ====
/-
  Multi-head self-attention over 1024 positions, 8 heads of width 32, as a function of the two argument arrays.

  Both arrays are [1, 1024, 256]; head `h` of position `s` is the 32 lanes `h·32 … h·32 + 31` of row `s`.  With queries read
  from the second array and keys and values from the first, the score of query `i` against key `j` in head `h` is
  `(∑ d, q i d · k j d) · c` for the scale word's value `c`, and the output at (i, d) is the softmax-weighted sum
  `∑ j, (exp (s j − M) / ∑ j', exp (s j' − M)) · k j d` with `M` the running maximum of the scores from the value of the
  maximum's starting word (`wsum`, with its host spelling `wsumHost`, in the module on repeated keys).

  Two spellings of the same output are stated here.  `kernelOut` is the direct one.  `refOut` repeats every query and every
  key four times along the position axis, takes the softmax over the 4096 repeated keys, and averages the four copies of
  each query's output; `tiled_eq` (in the module on the algebra) says the two agree whenever every entry is a real.
-/
import Idealize.ShloMosaic.PureOps.Ideal.Laws
import Idealize.ShloMosaic.Lib.ValueIdx
import proofs.«169422_j56435870269919_1_alg».proof.Proof.LibSoftmaxRepeat

noncomputable section

namespace Cert.Attn

open Idealize.ShloMosaic Idealize.ShloMosaic.ValueIdx

/-- The shape of both argument arrays and of the result. -/
abbrev A3 : Shape := ⟨3, ![1, 1024, 256]⟩

/-- The value of the scale word (the f32 nearest to 1/√32). -/
def scale : EReal := Ideal.ofBits .f32 0x3E3504F3#32
/-- The value of the maximum's starting word (the f32 pattern of −∞). -/
def start : EReal := Ideal.ofBits .f32 0xFF800000#32
/-- The value of the zero word. -/
def zero : EReal := Ideal.ofBits .f32 0x00000000#32
/-- The value of the word for 4.0. -/
def four : EReal := Ideal.ofBits .f32 0x40800000#32

/-- Lane `d` of head `h` at position `s` of an argument array. -/
def elt (x : A3.Idx → EReal) (h : Fin 8) (s : Fin 1024) (d : Fin 32) : EReal :=
  x (ix3 (0 : Fin 1) s (⟨h.val * 32 + d.val, by have := h.isLt; have := d.isLt; omega⟩ : Fin 256))

/-- The scaled score of query `i` against key `j` in head `h`: queries from `x1`, keys from `x0`. -/
def score (x0 x1 : A3.Idx → EReal) (h : Fin 8) (i j : Fin 1024) : EReal :=
  (∑ d : Fin 32, elt x1 h i d * elt x0 h j d) * scale

/-- The attention output of head `h` at query `i`, lane `d`. -/
def kernelOut (x0 x1 : A3.Idx → EReal) (h : Fin 8) (i : Fin 1024) (d : Fin 32) : EReal :=
  wsum start (fun j => score x0 x1 h i j) (fun j => elt x0 h j d)

/-- Position `K` of the four-fold repeated axis is a copy of position `K mod 1024`. -/
def fold4 (K : Fin 4096) : Fin 1024 := ⟨K.val % 1024, Nat.mod_lt _ (by decide)⟩

/-- Copy `r` of position `s` on the repeated axis: position `1024·r + s`. -/
abbrev copy (r : Fin 4) (s : Fin 1024) : Fin 4096 := Cert.TiledSum.tile (by decide : 4 * 1024 = 4096) r s

/-- The attention output of repeated query `I` over the 4096 repeated keys, in the host's spelling. -/
def refRow (x0 x1 : A3.Idx → EReal) (h : Fin 8) (I : Fin 4096) (d : Fin 32) : EReal :=
  wsumHost start zero (fun K => score x0 x1 h (fold4 I) (fold4 K)) (fun K => elt x0 h (fold4 K) d)

/-- The mean over the four copies of query `s`: their sum from `zero`, over `four`. -/
def refOut (x0 x1 : A3.Idx → EReal) (h : Fin 8) (s : Fin 1024) (d : Fin 32) : EReal :=
  Ideal.div (zero + ∑ r : Fin 4, refRow x0 x1 h (copy r s) d) four

/-- The head a lane of the 256 belongs to, and its place in the head. -/
def headOf (idx : A3.Idx) : Fin 8 := ⟨(idx 2).val / 32, by have h2 : (idx 2).val < 256 := (idx 2).isLt; omega⟩
def laneOf (idx : A3.Idx) : Fin 32 := ⟨(idx 2).val % 32, Nat.mod_lt _ (by decide)⟩
def posOf (idx : A3.Idx) : Fin 1024 := ⟨(idx 1).val, (idx 1).isLt⟩

/-- The result array, direct spelling. -/
def G (x0 x1 : A3.Idx → EReal) : A3.Idx → EReal :=
  fun idx => kernelOut x0 x1 (headOf idx) (posOf idx) (laneOf idx)

/-- The result array, repeated spelling. -/
def Gref (x0 x1 : A3.Idx → EReal) : A3.Idx → EReal :=
  fun idx => refOut x0 x1 (headOf idx) (posOf idx) (laneOf idx)

end Cert.Attn

end
-- ==== Proof.KernelBody.lean ====
/-
  One grid point's arithmetic, read at an index.

  The body receives a head's 1024 × 32 queries and keys (each a [1, 1, 1024, 32] block) and leaves a block of the same shape.
  Viewed as 1024 × 32 matrices Q and K, it forms the scores Q·Kᵀ times the scale word's value, takes a softmax along each row
  (maximum from the −∞ word, subtract, exponentiate, sum from the zero word, divide) and multiplies the weights by K.  A
  change of float format is the identity on the extended reals, so the entry (r, c) of the block it leaves is the
  softmax-weighted sum over the keys j of K j c, the score of j being (∑ d, Q r d · K j d) times the scale.
-/
import proofs.«169422_j56435870269919_1_alg».proof.Proof.Gen.KernelIdeal.Skeleton
import proofs.«169422_j56435870269919_1_alg».proof.Proof.LibRowSoftmax
import proofs.«169422_j56435870269919_1_alg».proof.Proof.Spec
import Idealize.ShloMosaic.Lib.Pipeline.Value

noncomputable section

namespace Cert.Attn.Body

open Cert.KernelIdeal Cert.KernelIdeal.Gen Idealize.ShloMosaic Idealize.ShloMosaic.ValueIdx Cert.RowOps Cert.RowSoftmax

/-- A [1, 1, 1024, 32] block viewed as a 1024 × 32 matrix reads, at (r, c), the block at (0, 0, r, c). -/
theorem unwrap_apply (x : S1x1x1024x32.Idx → EReal) (r : Fin 1024) (c : Fin 32) :
    shapeCast S1024x32 x shapeCasts_S1x1x1024x32_S1024x32 (ix2 r c) = x (ix4 (0 : Fin 1) (0 : Fin 1) r c) :=
  shapeCast_apply x shapeCasts_S1x1x1024x32_S1024x32 _ _ (by
    rw [Shape.rowMajor_val_four, Shape.rowMajor_val_two]
    show ((0 * 1 + 0) * 1024 + r.val) * 32 + c.val = r.val * 32 + c.val
    omega)

/-- A 1024 × 32 matrix viewed as a [1, 1, 1024, 32] block reads, at (0, 0, r, c), the matrix at (r, c). -/
theorem wrap_apply (y : S1024x32.Idx → EReal) (r : Fin 1024) (c : Fin 32) :
    shapeCast S1x1x1024x32 y shapeCasts_S1024x32_S1x1x1024x32 (ix4 (0 : Fin 1) (0 : Fin 1) r c) = y (ix2 r c) :=
  shapeCast_apply y shapeCasts_S1024x32_S1x1x1024x32 _ _ (by
    rw [Shape.rowMajor_val_two, Shape.rowMajor_val_four]
    show r.val * 32 + c.val = ((0 * 1 + 0) * 1024 + r.val) * 32 + c.val
    omega)

/-- The two products contract the left operand's second axis with the right operand's first. -/
theorem plain_scores : IsPlain dot_S1024x32_S32x1024_S1024x1024_1_0_0_1_n_n := ⟨rfl, rfl, rfl, rfl, rfl, rfl⟩
theorem plain_values : IsPlain dot_S1024x1024_S1024x32_S1024x32_1_0_0_1_n_n := ⟨rfl, rfl, rfl, rfl, rfl, rfl⟩

/-- A block as a matrix in the narrow format: the same extended reals. -/
def mat (x : Vec Ideal S1x1x1024x32 .f32) : FVec Ideal S1024x32 .bf16 :=
  truncf .bf16 (shapeCast S1024x32 x shapeCasts_S1x1x1024x32_S1024x32) bitsLt_bf16_f32

theorem mat_apply (x : Vec Ideal S1x1x1024x32 .f32) (r : Fin 1024) (c : Fin 32) :
    mat x (ix2 r c) = x (ix4 (0 : Fin 1) (0 : Fin 1) r c) := unwrap_apply x r c

/-- The scaled scores Q·Kᵀ·c as a 1024 × 1024 matrix. -/
def scores (qb kb : Vec Ideal S1x1x1024x32 .f32) : FVec Ideal S1024x1024 .f32 :=
  mulf (matmul dot_S1024x32_S32x1024_S1024x1024_1_0_0_1_n_n none (mat qb)
      (transpose S32x1024 [1, 0] (mat kb) transposes_S1024x32_p1_0_S32x1024) (constant S1024x1024 .f32 0x00000000#32))
    (broadcast S1024x1024 (Scalar.ofBits .f32 0x3E3504F3#32))

/-- The score of query r against key j: the contraction over the 32 lanes, times the scale. -/
theorem scores_apply (qb kb : Vec Ideal S1x1x1024x32 .f32) (r j : Fin 1024) :
    scores qb kb (ix2 r j)
      = (∑ d : Fin 32, qb (ix4 (0 : Fin 1) (0 : Fin 1) r d) * kb (ix4 (0 : Fin 1) (0 : Fin 1) j d)) * Cert.Attn.scale := by
  show (matmul dot_S1024x32_S32x1024_S1024x1024_1_0_0_1_n_n none (mat qb)
      (transpose S32x1024 [1, 0] (mat kb) transposes_S1024x32_p1_0_S32x1024) (constant S1024x1024 .f32 0x00000000#32)) (ix2 r j)
    * Cert.Attn.scale = _
  refine congrArg (· * Cert.Attn.scale) ?_
  refine (matmul_zero_apply plain_scores none _ _ r j).trans ?_
  refine Finset.sum_congr rfl fun d _ => ?_
  rw [swap_apply, mat_apply, mat_apply]

/-- The softmax weights of the scores, in the narrow format. -/
def weights (S : FVec Ideal S1024x1024 .f32) : FVec Ideal S1024x1024 .bf16 :=
  truncf .bf16
    (divf (exp (subf S (broadcastTo S1024x1024 (shapeCast S1024x1
          (multiReduction .maximumf [1] S1024 S 0xFF800000#32 reduces_S1024x1024_S1024 (.inl rfl) rfl) shapeCasts_S1024_S1024x1)
          broadcasts_S1024x1_S1024x1024)))
        (broadcastTo S1024x1024 (shapeCast S1024x1
          (multiReduction .add [1] S1024
            (exp (subf S (broadcastTo S1024x1024 (shapeCast S1024x1
              (multiReduction .maximumf [1] S1024 S 0xFF800000#32 reduces_S1024x1024_S1024 (.inl rfl) rfl) shapeCasts_S1024_S1024x1)
              broadcasts_S1024x1_S1024x1024))) 0x00000000#32 reduces_S1024x1024_S1024 (.inl rfl) rfl) shapeCasts_S1024_S1024x1)
          broadcasts_S1024x1_S1024x1024))
    bitsLt_bf16_f32

/-- The payload is: block to matrices, scores, weights, weights times keys, matrix to block. -/
theorem pay_eq (qb kb : Vec Ideal S1x1x1024x32 .f32) :
    k0_pay1 (F := Ideal) qb kb
      = shapeCast S1x1x1024x32
          (matmul dot_S1024x1024_S1024x32_S1024x32_1_0_0_1_n_n none (weights (scores qb kb)) (mat kb)
            (constant S1024x32 .f32 0x00000000#32)) shapeCasts_S1024x32_S1x1x1024x32 := rfl

/-- The weight of key j for query r. -/
theorem weights_apply (S : FVec Ideal S1024x1024 .f32) (r j : Fin 1024) :
    weights S (ix2 r j)
      = Ideal.div (Ideal.exp (S (ix2 r j) - rowMax S 0xFF800000#32 r))
          (∑ j' : Fin 1024, Ideal.exp (S (ix2 r j') - rowMax S 0xFF800000#32 r)) :=
  softmax_apply S 0xFF800000#32 0x00000000#32 reduces_S1024x1024_S1024 (.inl rfl) rfl rfl shapeCasts_S1024_S1024x1
    broadcasts_S1024x1_S1024x1024 r j

/-- THE BODY AT AN INDEX: entry (0, 0, r, c) of the block the body leaves is the softmax-weighted sum over the keys. -/
theorem pay_apply (qb kb : Vec Ideal S1x1x1024x32 .f32) (r : Fin 1024) (c : Fin 32) :
    k0_pay1 (F := Ideal) qb kb (ix4 (0 : Fin 1) (0 : Fin 1) r c)
      = Cert.Attn.wsum Cert.Attn.start
          (fun j : Fin 1024 => (∑ d : Fin 32, qb (ix4 (0 : Fin 1) (0 : Fin 1) r d) * kb (ix4 (0 : Fin 1) (0 : Fin 1) j d)) * Cert.Attn.scale)
          (fun j : Fin 1024 => kb (ix4 (0 : Fin 1) (0 : Fin 1) j c)) := by
  rw [pay_eq]
  refine (wrap_apply _ r c).trans ?_
  refine (matmul_zero_apply plain_values none _ _ r c).trans ?_
  unfold Cert.Attn.wsum
  have hS : (fun j : Fin 1024 => scores qb kb (ix2 r j))
      = fun j : Fin 1024 => (∑ d : Fin 32, qb (ix4 (0 : Fin 1) (0 : Fin 1) r d) * kb (ix4 (0 : Fin 1) (0 : Fin 1) j d)) * Cert.Attn.scale :=
    funext fun j => scores_apply qb kb r j
  have hM : rowMax (scores qb kb) 0xFF800000#32 r
      = (Finset.univ : Finset (Fin 1024)).fold max Cert.Attn.start
          (fun j : Fin 1024 => (∑ d : Fin 32, qb (ix4 (0 : Fin 1) (0 : Fin 1) r d) * kb (ix4 (0 : Fin 1) (0 : Fin 1) j d)) * Cert.Attn.scale) := by
    unfold rowMax
    rw [hS]
    rfl
  refine Finset.sum_congr rfl fun j _ => ?_
  rw [weights_apply, mat_apply, hM]
  refine congrArg (· * kb (ix4 (0 : Fin 1) (0 : Fin 1) j c)) ?_
  rw [scores_apply]
  refine congrArg (Ideal.div _) (Finset.sum_congr rfl fun j' _ => ?_)
  rw [scores_apply]

end Cert.Attn.Body

end
-- ==== Proof.KernelValue.lean ====
/-
  The idealized kernel's run, read as a value.

  @main splits each argument's 256 lanes into 8 heads of 32 and moves the head axis in front of the positions (a reshape and
  a transpose per argument), runs the region over a grid of 8 points, and undoes the layout on the region's result (a
  transpose and a reshape).  Point t of the grid stages head t of the queries and of the keys whole (a [1, 1, 1024, 32]
  block of each [1, 8, 1024, 32] array) and writes back head t of the result.  So each block the body sees is one head of
  an argument array, what it writes back is that head's attention output, the eight written blocks tile the result array,
  and after the two host operations that follow the region the result buffer holds the attention output lane by lane.
-/
import proofs.«169422_j56435870269919_1_alg».proof.Proof.Gen.KernelIdeal.Frame
import proofs.«169422_j56435870269919_1_alg».proof.Proof.KernelBody
import Idealize.ShloMosaic.Lib.Pipeline.Value
import Idealize.ShloMosaic.Lib.StableHlo.Run

noncomputable section

namespace Cert.Attn.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Heads: the layout the region's operands and result are in -/

/-- An argument array with its 256 lanes split into 8 heads of 32 and the head axis moved in front of the positions:
    [1, 1024, 256] → [1, 1024, 8, 32] → [1, 8, 1024, 32]. -/
def heads (x : S1x1024x256.Idx → EReal) : S1x8x1024x32.Idx → EReal :=
  transpose S1x8x1024x32 [0, 2, 1, 3] (shapeCast S1x1024x8x32 x shapeCasts_S1x1024x256_S1x1024x8x32)
    transposes_S1x1024x8x32_S1x8x1024x32_0_2_1_3

/-- Entry (0, h, s, d) of the heads layout is lane d of head h at position s. -/
theorem heads_apply (x : S1x1024x256.Idx → EReal) (h : Fin 8) (s : Fin 1024) (d : Fin 32) :
    heads x (ix4 (0 : Fin 1) h s d) = Cert.Attn.elt x h s d := by
  unfold heads Cert.Attn.elt
  refine (transpose_apply [0, 2, 1, 3] _ transposes_S1x1024x8x32_S1x8x1024x32_0_2_1_3 (ix4 (0 : Fin 1) h s d)
    (ix4 (0 : Fin 1) s h d) (fun b => by
      match b with
      | ⟨0, _⟩ => rfl
      | ⟨1, _⟩ => rfl
      | ⟨2, _⟩ => rfl
      | ⟨3, _⟩ => rfl)).trans ?_
  exact shapeCast_apply x shapeCasts_S1x1024x256_S1x1024x8x32 _ _ (by
    rw [Shape.rowMajor_val_three, Shape.rowMajor_val_four]
    show (0 * 1024 + s.val) * 256 + (h.val * 32 + d.val) = ((0 * 1024 + s.val) * 8 + h.val) * 32 + d.val
    omega)

/-- The inverse layout: [1, 8, 1024, 32] → [1, 1024, 8, 32] → [1, 1024, 256]. -/
def unheads (o : S1x8x1024x32.Idx → EReal) : S1x1024x256.Idx → EReal :=
  shapeCast S1x1024x256 (transpose S1x1024x8x32 [0, 2, 1, 3] o transposes_S1x8x1024x32_S1x1024x8x32_0_2_1_3)
    shapeCasts_S1x1024x8x32_S1x1024x256

/-- Entry idx of the inverse layout is the heads-layout entry (0, head of idx, position of idx, lane of idx). -/
theorem unheads_apply (o : S1x8x1024x32.Idx → EReal) (idx : S1x1024x256.Idx) :
    unheads o idx = o (ix4 (0 : Fin 1) (Cert.Attn.headOf idx) (Cert.Attn.posOf idx) (Cert.Attn.laneOf idx)) := by
  unfold unheads
  refine (shapeCast_apply _ shapeCasts_S1x1024x8x32_S1x1024x256 idx
    (ix4 (0 : Fin 1) (Cert.Attn.posOf idx) (Cert.Attn.headOf idx) (Cert.Attn.laneOf idx)) (by
      rw [Shape.rowMajor_val_four, Shape.rowMajor_val_three]
      have h0 : (idx 0).val < 1 := (idx 0).isLt
      have h2 : (idx 2).val < 256 := (idx 2).isLt
      show ((0 * 1024 + (idx 1).val) * 8 + (idx 2).val / 32) * 32 + (idx 2).val % 32
        = ((idx 0).val * 1024 + (idx 1).val) * 256 + (idx 2).val
      omega)).trans ?_
  exact transpose_apply [0, 2, 1, 3] o transposes_S1x8x1024x32_S1x1024x8x32_0_2_1_3 _ _ (fun b => by
    match b with
    | ⟨0, _⟩ => rfl
    | ⟨1, _⟩ => rfl
    | ⟨2, _⟩ => rfl
    | ⟨3, _⟩ => rfl)

/-! ## What the region finds in its two operand arrays -/

/-- The first operand's array is the heads layout of the second argument (the queries). -/
theorem V_queries (c : Dev nD) :
    (V m c main_v1 : S1x8x1024x32.Idx → EReal) = heads (m ((c : Thread nD τ).loc main_arg1)) := by
  show StableHlo.after hostOps0 (fun b => m (c, b)) (Proc.devRef .tc main_v1) = _
  after_results
  rfl

/-- The second operand's array is the heads layout of the first argument (the keys, which are also the values). -/
theorem V_keys (c : Dev nD) :
    (V m c main_v3 : S1x8x1024x32.Idx → EReal) = heads (m ((c : Thread nD τ).loc main_arg0)) := by
  show StableHlo.after hostOps0 (fun b => m (c, b)) (Proc.devRef .tc main_v3) = _
  after_results
  rfl

/-! ## The region's result array, block by block -/

/-- The region's result in the heads layout: entry (0, h, s, d) is the attention output of head h at position s, lane d. -/
def O (x0 x1 : S1x1024x256.Idx → EReal) : S1x8x1024x32.Idx → EReal :=
  fun i => Cert.Attn.kernelOut x0 x1 ⟨(i 1).val, (i 1).isLt⟩ ⟨(i 2).val, (i 2).isLt⟩ ⟨(i 3).val, (i 3).isLt⟩

theorem hz : (![0, 0, 0, 0] : Fin 4 → Nat) = fun _ => 0 := funext fun a => by fin_cases a <;> rfl

/-- The printed index maps, decided over the grid's eight points: point t's block of every window is head t, whole. -/
theorem idx_facts : ∀ t : Fin cfg0.N, t.val < 8
    ∧ win0_0.index t (0 : Fin 4) = 0 ∧ win0_0.index t (1 : Fin 4) = t.val ∧ win0_0.index t (2 : Fin 4) = 0 ∧ win0_0.index t (3 : Fin 4) = 0
    ∧ win0_1.index t (0 : Fin 4) = 0 ∧ win0_1.index t (1 : Fin 4) = t.val ∧ win0_1.index t (2 : Fin 4) = 0 ∧ win0_1.index t (3 : Fin 4) = 0
    ∧ win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)

/-- Every head is some point's. -/
theorem idx_onto : ∀ q : Fin 8, ∃ t : Fin cfg0.N, win0_2.index t = ![0, q.val, 0, 0] :=
  (by decide +kernel : ∀ q : Fin 8, ∃ t : Fin grid0.N, win0_2.index t = ![0, q.val, 0, 0])

/-- The head a grid point works on. -/
def headAt (t : Fin cfg0.N) : Fin 8 := ⟨t.val, (idx_facts t).1⟩

/-- Point t's block of the first operand is head t of the queries: entry y of the block is lane y₃ at position y₂. -/
theorem iblk_queries (c : Dev nD) (t : Fin cfg0.N) (y : S1x1x1024x32.Idx) :
    iblk m c 0 t y = Cert.Attn.elt (m ((c : Thread nD τ).loc main_arg1)) (headAt t) (⟨(y 2).val, (y 2).isLt⟩ : Fin 1024) (⟨(y 3).val, (y 3).isLt⟩ : Fin 32) := by
  obtain ⟨-, e0, e1, e2, e3, -⟩ := idx_facts t
  show V m c main_v1 (((cfg0.win 0).blk t).view.emb y) = _
  have h0 : ((cfg0.win 0).blk t).view.emb y = ix4 (0 : Fin 1) (headAt t) (⟨(y 2).val, (y 2).isLt⟩ : Fin 1024) (⟨(y 3).val, (y 3).isLt⟩ : Fin 32) := by
    funext a; apply Fin.ext
    match a with
    | ⟨0, _⟩ => show win0_0.index t (0 : Fin 4) * 1 + 1 * (y 0).val = 0; have hy : (y 0).val < 1 := (y 0).isLt; omega
    | ⟨1, _⟩ => show win0_0.index t (1 : Fin 4) * 1 + 1 * (y 1).val = t.val; have hy : (y 1).val < 1 := (y 1).isLt; omega
    | ⟨2, _⟩ => show win0_0.index t (2 : Fin 4) * 1024 + 1 * (y 2).val = (y 2).val; omega
    | ⟨3, _⟩ => show win0_0.index t (3 : Fin 4) * 32 + 1 * (y 3).val = (y 3).val; omega
  rw [h0, V_queries, heads_apply]

/-- Point t's block of the second operand is head t of the keys. -/
theorem iblk_keys (c : Dev nD) (t : Fin cfg0.N) (y : S1x1x1024x32.Idx) :
    iblk m c 1 t y = Cert.Attn.elt (m ((c : Thread nD τ).loc main_arg0)) (headAt t) (⟨(y 2).val, (y 2).isLt⟩ : Fin 1024) (⟨(y 3).val, (y 3).isLt⟩ : Fin 32) := by
  obtain ⟨-, -, -, -, -, e0, e1, e2, e3, -⟩ := idx_facts t
  show V m c main_v3 (((cfg0.win 1).blk t).view.emb y) = _
  have h0 : ((cfg0.win 1).blk t).view.emb y = ix4 (0 : Fin 1) (headAt t) (⟨(y 2).val, (y 2).isLt⟩ : Fin 1024) (⟨(y 3).val, (y 3).isLt⟩ : Fin 32) := by
    funext a; apply Fin.ext
    match a with
    | ⟨0, _⟩ => show win0_1.index t (0 : Fin 4) * 1 + 1 * (y 0).val = 0; have hy : (y 0).val < 1 := (y 0).isLt; omega
    | ⟨1, _⟩ => show win0_1.index t (1 : Fin 4) * 1 + 1 * (y 1).val = t.val; have hy : (y 1).val < 1 := (y 1).isLt; omega
    | ⟨2, _⟩ => show win0_1.index t (2 : Fin 4) * 1024 + 1 * (y 2).val = (y 2).val; omega
    | ⟨3, _⟩ => show win0_1.index t (3 : Fin 4) * 32 + 1 * (y 3).val = (y 3).val; omega
  rw [h0, V_keys, heads_apply]

/-- The body's result at any entry of its block, from any two operand blocks: every block entry has its first two
    coordinates zero, so it is (0, 0, y₂, y₃). -/
theorem pay_at (qb kb : Vec Ideal S1x1x1024x32 .f32) (y : S1x1x1024x32.Idx) :
    k0_pay1 (F := Ideal) qb kb y
      = Cert.Attn.wsum Cert.Attn.start
          (fun j : Fin 1024 => (∑ d : Fin 32, qb (ix4 (0 : Fin 1) (0 : Fin 1) (⟨(y 2).val, (y 2).isLt⟩ : Fin 1024) d) * kb (ix4 (0 : Fin 1) (0 : Fin 1) j d)) * Cert.Attn.scale)
          (fun j : Fin 1024 => kb (ix4 (0 : Fin 1) (0 : Fin 1) j (⟨(y 3).val, (y 3).isLt⟩ : Fin 32))) := by
  have hy : y = ix4 (0 : Fin 1) (0 : Fin 1) (⟨(y 2).val, (y 2).isLt⟩ : Fin 1024) (⟨(y 3).val, (y 3).isLt⟩ : Fin 32) := by
    funext a; apply Fin.ext
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl
    | ⟨3, _⟩ => rfl
  exact (congrArg (k0_pay1 (F := Ideal) qb kb) hy).trans (Cert.Attn.Body.pay_apply qb kb _ _)

/-- WHAT POINT t WRITES BACK is block t of the attention output in the heads layout. -/
theorem flushed_eq (c : Dev nD) (t : Fin cfg0.N) :
    (dats m 0 c).flushed 2 t
      = ((cfg0.win 2).blk t).view.read (Elt Ideal) (O (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S1x1x1024x32) hz]
  obtain ⟨-, -, -, -, -, -, -, -, -, e0, e1, e2, e3⟩ := idx_facts t
  funext y
  show k0_pay1 (F := Ideal) (iblk m c 0 t) (iblk m c 1 t) y
    = O (m ((c : Thread nD τ).loc main_arg0)) (m ((c : Thread nD τ).loc main_arg1)) (((cfg0.win 2).blk t).view.emb y)
  refine (pay_at (iblk m c 0 t) (iblk m c 1 t) y).trans ?_
  simp only [iblk_queries, iblk_keys]
  unfold O Cert.Attn.kernelOut Cert.Attn.score
  have h1 : (⟨(((cfg0.win 2).blk t).view.emb y 1).val, (((cfg0.win 2).blk t).view.emb y 1).isLt⟩ : Fin 8) = headAt t := by
    apply Fin.ext
    show win0_2.index t (1 : Fin 4) * 1 + 1 * (y 1).val = t.val; have hy : (y 1).val < 1 := (y 1).isLt; omega
  have h2 : (⟨(((cfg0.win 2).blk t).view.emb y 2).val, (((cfg0.win 2).blk t).view.emb y 2).isLt⟩ : Fin 1024) = ⟨(y 2).val, (y 2).isLt⟩ := by
    apply Fin.ext
    show win0_2.index t (2 : Fin 4) * 1024 + 1 * (y 2).val = (y 2).val; omega
  have h3 : (⟨(((cfg0.win 2).blk t).view.emb y 3).val, (((cfg0.win 2).blk t).view.emb y 3).isLt⟩ : Fin 32) = ⟨(y 3).val, (y 3).isLt⟩ := by
    apply Fin.ext
    show win0_2.index t (3 : Fin 4) * 32 + 1 * (y 3).val = (y 3).val; omega
  rw [h1, h2, h3]

/-- An index of the result array is in point t's block iff each coordinate is in the block's range on its axis. -/
theorem mem_blk (t : Fin cfg0.N) (i : S1x8x1024x32.Idx) :
    i ∈ ((cfg0.win 2).blk t).view.set ↔ ∀ a : Fin 4, win0_2.index t a * S1x1x1024x32.size a ≤ (i a).val
      ∧ (i a).val < win0_2.index t a * S1x1x1024x32.size a + S1x1x1024x32.size a := by
  show i ∈ ((View.whole main_v4).slice (win0_2.rect t)).set ↔ _
  rw [View.set_slice_whole, Rect.mem_set_unit]
  exact Iff.rfl

/-- The eight blocks tile the result array: index i is in the block of the point whose head is i₁. -/
theorem cover (i : S1x8x1024x32.Idx) :
    ∃ t : Fin cfg0.N, (cfg0.win 2).flush t = true ∧ i ∈ ((cfg0.win 2).blk t).view.set := by
  obtain ⟨t, ht⟩ := idx_onto ⟨(i 1).val, (i 1).isLt⟩
  have q0 : win0_2.index t (0 : Fin 4) = 0 := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; have h : (i 0).val < 1 := (i 0).isLt; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; have h : (i 2).val < 1024 := (i 2).isLt; omega
  | ⟨3, _⟩ => show win0_2.index t (3 : Fin 4) * 32 ≤ (i 3).val ∧ (i 3).val < win0_2.index t (3 : Fin 4) * 32 + 32; have h : (i 3).val < 32 := (i 3).isLt; omega

/-- THE RESULT ARRAY after the region: the attention output in the heads layout. -/
theorem final (c : Dev nD) :
    (dats m 0 c).arrAt 2 cfg0.N = O (m ((c : Thread nD τ).loc main_arg0)) (m ((c : Thread nD τ).loc main_arg1)) :=
  (dats m 0 c).arrAt_eq_of_cover 2 _ (fun t _ => flushed_eq m c t) cover

/-! ## The whole run -/

/-- The inverse layout of the region's result is the result array of the specification. -/
theorem unheads_O (x0 x1 : S1x1024x256.Idx → EReal) : unheads (O x0 x1) = Cert.Attn.G x0 x1 := by
  funext idx
  rw [unheads_apply]
  rfl

/-- After the frame run the result buffer holds what the two host operations after the region make of the region's
    result array: its inverse layout. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v6)
      = unheads (O (m ((c : Thread nD τ).loc main_arg0)) (m ((c : Thread nD τ).loc main_arg1))) := by
  refine ((h c).2 main_v6 (Pipeline.mem_restRefs_of main_v6 (by decide) (by decide))).trans ?_
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = O (m ((c : Thread nD τ).loc main_arg0)) (m ((c : Thread nD τ).loc main_arg1)) :=
    (Pipeline.withArrays_arr spec0 launch0.win.arr_inj c _ _ 2).trans (final m c)
  show unheads (Pipeline.withArrays (cfgs 0).spec c (V0 m c) (fun w => (dats m 0 c).arrAt w (cfgs 0).N) (Proc.devRef .tc main_v4)) = _
  exact congrArg unheads hw

/-- THE KERNEL'S RUN: every weakly fair execution terminates with the result buffer at the attention output of the two
    argument arrays, and the arguments as launched. -/
theorem run : θ_run defs (onTc (τ := τ) (main (F := Ideal))) ⟨m, fun _ => 0, ρ⟩ fun r => ∀ c : Dev nD,
      r.2.mem ((c : Thread nD τ).loc main_v6)
        = Cert.Attn.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(result_eq m r h c).trans (unheads_O _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Attn.Ker

end
-- ==== Proof.LibIdxRank78.lean ====
/-
  Indices of rank 7 and rank 8 by their coordinates.

  A multi-index of a shape of rank 7 (or 8) is the tuple of its coordinates: `ix7` (`ix8`) builds the index from the
  coordinates, each typed by its literal extent, and `eq_ix7` (`eq_ix8`) says every index is of that form.  The
  row-major position of such an index is the Horner sum of its coordinates over the extents,
  `(((((i₀·d₁ + i₁)·d₂ + i₂)·d₃ + …)·d₆ + i₆`: `Shape.rowMajor_val_seven` and `Shape.rowMajor_val_eight`.  With the
  extents literals, the two sides of a reshape between such shapes are then one linear equation over the naturals.
-/
import Idealize.ShloMosaic.Lib.ValueIdx

namespace Idealize.ShloMosaic

/-- Rank 7: the row-major position of an index is the Horner sum of its coordinates over the extents. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position of an index is the Horner sum of its coordinates over the extents. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with
    | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl
  | ⟨7, _⟩ => rfl

end ValueIdx

end Idealize.ShloMosaic
-- ==== Proof.RefValue.lean ====
/-
  The host reference for multi-head attention, read element by element.

  The reference splits each [1, 1024, 256] argument into 8 heads of 32 lanes, repeats the 1024 positions four times, and
  takes a softmax attention over the 4096 repeated positions: the scaled scores of every repeated query against every
  repeated key, their maximum (folded from the starting word's value and once more compared with it), the exponentials of
  the differences, their sum from the zero word's value, the quotients, and the weighted sum of the repeated keys read as
  values.  It then adds the four copies of each query's output from the zero word's value, divides by the word for 4.0, and
  puts the heads back side by side.  Each lemma below reads one of these stages at explicit coordinates; the last says the
  whole result is the array `Cert.Attn.Gref` of the shared definitions.
-/
import proofs.«169422_j56435870269919_1_alg».proof.Proof.Gen.ReferenceIdeal.Read
import proofs.«169422_j56435870269919_1_alg».proof.Proof.Spec
import proofs.«169422_j56435870269919_1_alg».proof.Proof.LibIdxRank78
import Idealize.ShloMosaic.Lib.ValueIdx
import Idealize.ShloMosaic.Lib.Pipeline.Value
import Idealize.ShloMosaic.PureOps.Ideal.Laws
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx
open Cert.Attn

/-! ## The four-fold repetition of the positions -/

/-- A [1, 1024, 8, 32] array with its positions repeated four times and the heads moved in front of the positions: the
    result is [1, 8, 4096, 32]. -/
def tile4 {α : Type} (y : S1x1024x8x32.Idx → α) : S1x8x4096x32.Idx → α :=
  transpose S1x8x4096x32 [0, 2, 1, 3]
    (shapeCast S1x4096x8x32
      (broadcastInDim S1x1x4x1024x1x8x1x32 ![0, 1, 2, 3, 4, 5, 6, 7]
        bcast_S1x1x1x1024x1x8x1x32_S1x1x4x1024x1x8x1x32_0_1_2_3_4_5_6_7
        (shapeCast S1x1x1x1024x1x8x1x32 y shapeCasts_S1x1024x8x32_S1x1x1x1024x1x8x1x32))
      shapeCasts_S1x1x4x1024x1x8x1x32_S1x4096x8x32)
    transposes_S1x4096x8x32_S1x8x4096x32_0_2_1_3

/-- Position `I` of the repeated array is position `I mod 1024` of the original: at head `h`, repeated position `I`
    and lane `d` the repeated array holds the original's entry at position `I mod 1024`, head `h`, lane `d`. -/
theorem tile4_apply {α : Type} (y : S1x1024x8x32.Idx → α) (h : Fin 8) (I : Fin 4096) (d : Fin 32) :
    tile4 y (ix4 (0 : Fin 1) h I d) = y (ix4 (0 : Fin 1) (fold4 I) h d) := by
  have hI := I.isLt
  have hh := h.isLt
  have hd := d.isLt
  unfold tile4
  rw [transpose_apply [0, 2, 1, 3] _ transposes_S1x4096x8x32_S1x8x4096x32_0_2_1_3 (ix4 (0 : Fin 1) h I d)
    (ix4 (0 : Fin 1) I h d) (fun b => match b with | ⟨0, _⟩ => rfl | ⟨1, _⟩ => rfl | ⟨2, _⟩ => rfl | ⟨3, _⟩ => rfl)]
  rw [shapeCast_apply _ shapeCasts_S1x1x4x1024x1x8x1x32_S1x4096x8x32 (ix4 (0 : Fin 1) I h d)
    (ix8 (0 : Fin 1) (0 : Fin 1) (⟨I.val / 1024, by omega⟩ : Fin 4) (fold4 I) (0 : Fin 1) h (0 : Fin 1) d)
    (by rw [Shape.rowMajor_val_eight, Shape.rowMajor_val_four];
        show ((((((0 * 1 + 0) * 4 + I.val / 1024) * 1024 + I.val % 1024) * 1 + 0) * 8 + h.val) * 1 + 0) * 32 + d.val = ((0 * 4096 + I.val) * 8 + h.val) * 32 + d.val;
        omega)]
  rw [broadcastInDim_apply _ bcast_S1x1x1x1024x1x8x1x32_S1x1x4x1024x1x8x1x32_0_1_2_3_4_5_6_7 _
    (ix8 (0 : Fin 1) (0 : Fin 1) (⟨I.val / 1024, by omega⟩ : Fin 4) (fold4 I) (0 : Fin 1) h (0 : Fin 1) d)
    (ix8 (0 : Fin 1) (0 : Fin 1) (0 : Fin 1) (fold4 I) (0 : Fin 1) h (0 : Fin 1) d)
    (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl]
      | ⟨3, _⟩ => by show (fold4 I).val = if (1024 : Nat) = 1 then 0 else (fold4 I).val; rw [if_neg (by decide)]
      | ⟨4, _⟩ => by show 0 = if (1 : Nat) = 1 then 0 else _; rw [if_pos rfl]
      | ⟨5, _⟩ => by show h.val = if (8 : Nat) = 1 then 0 else h.val; rw [if_neg (by decide)]
      | ⟨6, _⟩ => by show 0 = if (1 : Nat) = 1 then 0 else _; rw [if_pos rfl]
      | ⟨7, _⟩ => by show d.val = if (32 : Nat) = 1 then 0 else d.val; rw [if_neg (by decide)])]
  rw [shapeCast_apply y shapeCasts_S1x1024x8x32_S1x1x1x1024x1x8x1x32
    (ix8 (0 : Fin 1) (0 : Fin 1) (0 : Fin 1) (fold4 I) (0 : Fin 1) h (0 : Fin 1) d) (ix4 (0 : Fin 1) (fold4 I) h d)
    (by rw [Shape.rowMajor_val_four, Shape.rowMajor_val_eight];
        show ((0 * 1024 + I.val % 1024) * 8 + h.val) * 32 + d.val = ((((((0 * 1 + 0) * 1 + 0) * 1024 + I.val % 1024) * 1 + 0) * 8 + h.val) * 1 + 0) * 32 + d.val;
        omega)]

/-- Splitting the 256 lanes of a row into 8 heads of 32: the entry of head `h`, lane `d` at position `s` is lane
    `h·32 + d` of row `s`. -/
theorem idx_v0_ix4 (s : Fin 1024) (h : Fin 8) (d : Fin 32) :
    idx_main_v0 (ix4 (0 : Fin 1) s h d)
      = ix3 (0 : Fin 1) s (⟨h.val * 32 + d.val, by have := h.isLt; have := d.isLt; omega⟩ : Fin 256) := by
  have hs := s.isLt
  have hh := h.isLt
  have hd := d.isLt
  funext a
  refine Fin.ext ?_
  match a with
  | ⟨0, _⟩ => rfl
  | ⟨1, _⟩ => show ((((0 * 1024 + s.val) * 8 + h.val) * 32 + d.val) / 256 % 1024 = s.val); omega
  | ⟨2, _⟩ => show ((((0 * 1024 + s.val) * 8 + h.val) * 32 + d.val) % 256 = h.val * 32 + d.val); omega

/-- The repeated queries: at head `h`, repeated position `I`, lane `d` they hold the query entry of position
    `I mod 1024`. -/
theorem v5_apply (x1 : (⟨S1x1024x256, .f32⟩ : BufTy).Contents (Elt Ideal)) (h : Fin 8) (I : Fin 4096) (d : Fin 32) :
    val_main_v5 (F := Ideal) x1 (ix4 (0 : Fin 1) h I d) = elt x1 h (fold4 I) d := by
  show tile4 (val_main_v0 (F := Ideal) x1) (ix4 (0 : Fin 1) h I d) = _
  rw [tile4_apply, val_main_v0_apply, idx_v0_ix4]
  rfl

/-- The repeated keys: at head `h`, repeated position `K`, lane `d` they hold the key entry of position
    `K mod 1024`. -/
theorem v9_apply (x0 : (⟨S1x1024x256, .f32⟩ : BufTy).Contents (Elt Ideal)) (h : Fin 8) (K : Fin 4096) (d : Fin 32) :
    val_main_v9 (F := Ideal) x0 (ix4 (0 : Fin 1) h K d) = elt x0 h (fold4 K) d := by
  show tile4 (val_main_v1 (F := Ideal) x0) (ix4 (0 : Fin 1) h K d) = _
  rw [tile4_apply, val_main_v1_apply]
  show x0 (idx_main_v0 (ix4 (0 : Fin 1) (fold4 K) h d)) = _
  rw [idx_v0_ix4]
  rfl

/-! ## Scores, their maximum, the exponentials and their sum -/

/-- The scaled score of repeated query `I` against repeated key `K` is the score of query `I mod 1024` against key
    `K mod 1024`: the sum over the 32 lanes of the products, times the scale word's value. -/
theorem v12_apply (x0 x1 : (⟨S1x1024x256, .f32⟩ : BufTy).Contents (Elt Ideal)) (h : Fin 8) (I K : Fin 4096) :
    val_main_v12 (F := Ideal) x0 x1 (ix4 (0 : Fin 1) h I K) = score x0 x1 h (fold4 I) (fold4 K) := by
  rw [val_main_v12_apply, val_main_v10_apply, val_main_v11_apply, val_main_cst_apply, Ideal.mulf_def, Ideal.ofBits_def]
  unfold score scale
  refine congrArg (· * _) (Finset.sum_congr rfl fun k _ => ?_)
  rw [show lidx_main_v10 (ix4 (0 : Fin 1) h I K) k = ix4 (0 : Fin 1) h I k from funext fun a => Fin.ext (by match a with | ⟨0, _⟩ => rfl | ⟨1, _⟩ => rfl | ⟨2, _⟩ => rfl | ⟨3, _⟩ => rfl),
    show ridx_main_v10 (ix4 (0 : Fin 1) h I K) k = ix4 (0 : Fin 1) h K k from funext fun a => Fin.ext (by match a with | ⟨0, _⟩ => rfl | ⟨1, _⟩ => rfl | ⟨2, _⟩ => rfl | ⟨3, _⟩ => rfl),
    v5_apply, v9_apply]

/-- Over head `h` and repeated query `I`, the source index of the score array with last coordinate `K`. -/
theorem lift_last (hr : S1x8x4096x4096.Reduces [3] S1x8x4096) (h : Fin 8) (I K : Fin 4096) :
    hr.lift (ix3 (0 : Fin 1) h I) K = ix4 (0 : Fin 1) h I K :=
  funext fun c => Fin.ext (by
    show hr.liftVal (ix3 (0 : Fin 1) h I) K.val c = (ix4 (0 : Fin 1) h I K c).val
    unfold Shape.Reduces.liftVal
    match c with
    | ⟨0, _⟩ => rfl
    | ⟨1, _⟩ => rfl
    | ⟨2, _⟩ => rfl
    | ⟨3, _⟩ => rfl)

/-- The maximum over the keys: the fold of `max` over the 4096 scores of repeated query `I`, from the starting word's
    value. -/
theorem v13_apply (x0 x1 : (⟨S1x1024x256, .f32⟩ : BufTy).Contents (Elt Ideal)) (h : Fin 8) (I : Fin 4096) :
    val_main_v13 (F := Ideal) x0 x1 (ix3 (0 : Fin 1) h I)
      = (Finset.univ : Finset (Fin 4096)).fold max start (fun K => score x0 x1 h (fold4 I) (fold4 K)) := by
  have hr : S1x8x4096x4096.Reduces [3] S1x8x4096 := by decide
  unfold val_main_v13
  rw [Host.reduce_eq_fold_single (FloatOps.maximumf (F := Ideal) (φ := .f32)) (val_main_v12 (F := Ideal) x0 x1)
    (val_main_cst_0 (F := Ideal)) reducesTo_S1x8x4096x4096_S1x8x4096_d3 hr h_S_ (ix3 (0 : Fin 1) h I)]
  show (Finset.univ : Finset (Fin 4096)).fold max (Ideal.ofBits .f32 0xFF800000#32) _ = _
  unfold start
  refine congrArg (Finset.fold max _ · _) (funext fun (K : Fin 4096) => ?_)
  exact (congrArg (val_main_v12 (F := Ideal) x0 x1) (lift_last hr h I K)).trans (v12_apply x0 x1 h I K)

/-- The maximum the reference subtracts: the folded maximum compared once more with the starting word's value. -/
def rmax (x0 x1 : A3.Idx → EReal) (h : Fin 8) (I : Fin 4096) : EReal :=
  max start ((Finset.univ : Finset (Fin 4096)).fold max start (fun K => score x0 x1 h (fold4 I) (fold4 K)))

theorem v15_apply (x0 x1 : (⟨S1x1024x256, .f32⟩ : BufTy).Contents (Elt Ideal)) (h : Fin 8) (I : Fin 4096) :
    val_main_v15 (F := Ideal) x0 x1 (ix3 (0 : Fin 1) h I) = rmax x0 x1 h I := by
  rw [val_main_v15_apply, val_main_v14_apply, val_main_cst_1_apply, Ideal.maximumf_def, Ideal.ofBits_def, v13_apply]
  rfl

/-- The exponential of each score less the row's maximum. -/
theorem v19_apply (x0 x1 : (⟨S1x1024x256, .f32⟩ : BufTy).Contents (Elt Ideal)) (h : Fin 8) (I K : Fin 4096) :
    val_main_v19 (F := Ideal) x0 x1 (ix4 (0 : Fin 1) h I K)
      = Ideal.exp (score x0 x1 h (fold4 I) (fold4 K) - rmax x0 x1 h I) := by
  rw [val_main_v19_apply, val_main_v18_apply, val_main_v17_apply, val_main_v16_apply, Ideal.hostUnary_exp_def,
    Ideal.subf_def, v12_apply,
    show idx_main_v16 (idx_main_v17 (ix4 (0 : Fin 1) h I K)) = ix3 (0 : Fin 1) h I from funext fun a => Fin.ext (by match a with | ⟨0, _⟩ => rfl | ⟨1, _⟩ => rfl | ⟨2, _⟩ => rfl),
    v15_apply]

/-- The normaliser: the sum of the 4096 exponentials, started from the zero word's value. -/
theorem v20_apply (x0 x1 : (⟨S1x1024x256, .f32⟩ : BufTy).Contents (Elt Ideal)) (h : Fin 8) (I : Fin 4096) :
    val_main_v20 (F := Ideal) x0 x1 (ix3 (0 : Fin 1) h I)
      = zero + ∑ K : Fin 4096, Ideal.exp (score x0 x1 h (fold4 I) (fold4 K) - rmax x0 x1 h I) := by
  rw [val_main_v20_apply]
  refine congrArg₂ (· + ·) rfl (Finset.sum_congr rfl fun K _ => ?_)
  rw [show idx_main_v20 (ix3 (0 : Fin 1) h I) K = ix4 (0 : Fin 1) h I K from funext fun a => Fin.ext (by match a with | ⟨0, _⟩ => rfl | ⟨1, _⟩ => rfl | ⟨2, _⟩ => rfl | ⟨3, _⟩ => rfl), v19_apply]

/-! ## The weighted sum, the mean over the four copies, and the result -/

/-- The softmax weight of repeated key `K` for repeated query `I`: its exponential over the normaliser. -/
theorem v23_apply (x0 x1 : (⟨S1x1024x256, .f32⟩ : BufTy).Contents (Elt Ideal)) (h : Fin 8) (I K : Fin 4096) :
    val_main_v23 (F := Ideal) x0 x1 (ix4 (0 : Fin 1) h I K)
      = Ideal.div (Ideal.exp (score x0 x1 h (fold4 I) (fold4 K) - rmax x0 x1 h I))
          (zero + ∑ K' : Fin 4096, Ideal.exp (score x0 x1 h (fold4 I) (fold4 K') - rmax x0 x1 h I)) := by
  rw [val_main_v23_apply, val_main_v22_apply, val_main_v21_apply, Ideal.hostDivf_def, v19_apply,
    show idx_main_v21 (idx_main_v22 (ix4 (0 : Fin 1) h I K)) = ix3 (0 : Fin 1) h I from funext fun a => Fin.ext (by match a with | ⟨0, _⟩ => rfl | ⟨1, _⟩ => rfl | ⟨2, _⟩ => rfl),
    v20_apply]

/-- The attention output of repeated query `I`: the weights times the repeated keys read as values, summed over the
    4096 repeated keys. -/
theorem v24_apply (x0 x1 : (⟨S1x1024x256, .f32⟩ : BufTy).Contents (Elt Ideal)) (h : Fin 8) (I : Fin 4096) (d : Fin 32) :
    val_main_v24 (F := Ideal) x0 x1 (ix4 (0 : Fin 1) h I d) = refRow x0 x1 h I d := by
  rw [val_main_v24_apply]
  unfold refRow wsumHost
  refine Finset.sum_congr rfl fun K _ => ?_
  rw [show lidx_main_v24 (ix4 (0 : Fin 1) h I d) K = ix4 (0 : Fin 1) h I K from funext fun a => Fin.ext (by match a with | ⟨0, _⟩ => rfl | ⟨1, _⟩ => rfl | ⟨2, _⟩ => rfl | ⟨3, _⟩ => rfl),
    show ridx_main_v24 (ix4 (0 : Fin 1) h I d) K = ix4 (0 : Fin 1) h K d from funext fun a => Fin.ext (by match a with | ⟨0, _⟩ => rfl | ⟨1, _⟩ => rfl | ⟨2, _⟩ => rfl | ⟨3, _⟩ => rfl),
    v23_apply, v9_apply]
  rfl

/-- Copy `r` of query `s` sits at repeated position `1024·r + s`: splitting the 4096 positions as 4 × 1024 and
    reading copy `r`, position `s` reads repeated position `1024·r + s`. -/
theorem idx_v25_v26 (h : Fin 8) (s : Fin 1024) (d : Fin 32) (r : Fin 4) :
    idx_main_v25 (idx_main_v26 (ix4 (0 : Fin 1) h s d) r) = ix4 (0 : Fin 1) h (copy r s) d := by
  have hh := h.isLt
  have hs := s.isLt
  have hd := d.isLt
  have hr := r.isLt
  funext a
  refine Fin.ext ?_
  match a with
  | ⟨0, _⟩ => rfl
  | ⟨1, _⟩ => show (((((0 * 8 + h.val) * 4 + r.val) * 1024 + s.val) * 32 + d.val) / 131072 % 8 = h.val); omega
  | ⟨2, _⟩ =>
    show (((((0 * 8 + h.val) * 4 + r.val) * 1024 + s.val) * 32 + d.val) / 32 % 4096 = 1024 * r.val + s.val); omega
  | ⟨3, _⟩ => show (((((0 * 8 + h.val) * 4 + r.val) * 1024 + s.val) * 32 + d.val) % 32 = d.val); omega

/-- The mean over the four copies of query `s`: their outputs summed from the zero word's value, over the value of the
    word for 4.0. -/
theorem v28_apply (x0 x1 : (⟨S1x1024x256, .f32⟩ : BufTy).Contents (Elt Ideal)) (h : Fin 8) (s : Fin 1024) (d : Fin 32) :
    val_main_v28 (F := Ideal) x0 x1 (ix4 (0 : Fin 1) h s d) = refOut x0 x1 h s d := by
  rw [val_main_v28_apply, val_main_v27_apply, val_main_cst_4_apply, val_main_v26_apply, Ideal.hostDivf_def,
    Ideal.ofBits_def]
  unfold refOut
  refine congrArg₂ Ideal.div (congrArg₂ (· + ·) rfl (Finset.sum_congr rfl fun r _ => ?_)) rfl
  rw [val_main_v25_apply, idx_v25_v26, v24_apply]

/-- The reference's result is the array of the means: at position `s` and lane `l` of the 256 it holds the mean for
    head `l / 32`, query `s`, lane `l mod 32`. -/
theorem ref_eq (x0 x1 : (⟨S1x1024x256, .f32⟩ : BufTy).Contents (Elt Ideal)) :
    Cert.ReferenceIdeal.Read.val_main_v30 (F := Ideal) x0 x1 = Cert.Attn.Gref x0 x1 := by
  funext idx
  have h0 : (idx 0).val < 1 := (idx 0).isLt
  have h1 : (idx 1).val < 1024 := (idx 1).isLt
  have h2 : (idx 2).val < 256 := (idx 2).isLt
  rw [val_main_v30_apply, val_main_v29_apply,
    show idx_main_v29 (idx_main_v30 idx) = ix4 (0 : Fin 1) (headOf idx) (posOf idx) (laneOf idx) from
      funext fun a => Fin.ext (by
        match a with
        | ⟨0, _⟩ => rfl
        | ⟨1, _⟩ =>
          show (((idx 0).val * 1024 + (idx 1).val) * 256 + (idx 2).val) / 32 % 8 = (idx 2).val / 32; omega
        | ⟨2, _⟩ =>
          show (((idx 0).val * 1024 + (idx 1).val) * 256 + (idx 2).val) / 256 % 1024 = (idx 1).val; omega
        | ⟨3, _⟩ =>
          show (((idx 0).val * 1024 + (idx 1).val) * 256 + (idx 2).val) % 32 = (idx 2).val % 32; omega),
    v28_apply]
  rfl

end Cert.Attn.Ref

end
-- ==== Proof.Algebra.lean ====
/-
  The two spellings of the attention output agree on real entries.

  Every query and every key is repeated four times along the position axis in the repeated spelling.  Repeating a
  family of scores does not change its maximum; it multiplies the normaliser of the softmax by four and repeats each
  weighted value four times, so the weighted sum over the 4096 repeated keys equals the weighted sum over the 1024
  keys.  The four copies of a query give the same row, and the mean of four equal reals is that real.  All of this
  is arithmetic on the reals: the entries are reals, so every score, every exponential and every quotient is a real,
  and the extended reals' corners are never reached.
-/
import Mathlib.Data.Finset.Fold
import Mathlib.Data.Finset.Max
import Mathlib.Tactic.FieldSimp
import Mathlib.Tactic.Ring
import proofs.«169422_j56435870269919_1_alg».proof.Proof.Spec

open scoped BigOperators

noncomputable section

namespace Cert.Attn

open Idealize.ShloMosaic Idealize.ShloMosaic.ValueIdx

/-! ### The four words -/

/-- The maximum's starting word denotes the bottom of the extended reals. -/
theorem start_eq : start = ⊥ := by simp [start, Ideal.ofBits, Ideal.ieee]

/-- The zero word denotes zero. -/
theorem zero_eq : zero = 0 := by simp [zero, Ideal.ofBits, Ideal.ieee]

/-- The word for 4.0 denotes the real number four. -/
theorem four_eq : four = ((4 : ℝ) : EReal) := by
  simp [four, Ideal.ofBits, Ideal.ieee, -EReal.coe_mul]; norm_num

/-- The scale word denotes a real number (its exponent field is neither all ones nor zero). -/
theorem scale_real : ∃ γ : ℝ, scale = (γ : EReal) := by
  simp only [scale, Ideal.ofBits, Ideal.ieee]
  rw [if_neg (by decide), if_neg (by decide)]
  exact ⟨_, rfl⟩

/-! ### The entries and scores of real arrays -/

/-- Lane `d` of head `h` at position `s` of a real array. -/
def eltR (a : A3.Idx → ℝ) (h : Fin 8) (s : Fin 1024) (d : Fin 32) : ℝ :=
  a (ix3 (0 : Fin 1) s (⟨h.val * 32 + d.val, by have := h.isLt; have := d.isLt; omega⟩ : Fin 256))

/-- An entry of a coerced real array is the coercion of the entry. -/
theorem elt_coe (a : A3.Idx → ℝ) (h : Fin 8) (s : Fin 1024) (d : Fin 32) :
    elt (fun i => ((a i : ℝ) : EReal)) h s d = ((eltR a h s d : ℝ) : EReal) := rfl

/-- The real score of query `i` against key `j` in head `h`, for a real scale `γ`. -/
def scoreR (γ : ℝ) (a0 a1 : A3.Idx → ℝ) (h : Fin 8) (i j : Fin 1024) : ℝ :=
  (∑ d : Fin 32, eltR a1 h i d * eltR a0 h j d) * γ

/-- The score of coerced real arrays, for a real value `γ` of the scale word, is the coercion of the real
    score `(∑ d, q i d · k j d) · γ`. -/
theorem score_coe (γ : ℝ) (hγ : scale = (γ : EReal)) (a0 a1 : A3.Idx → ℝ) (h : Fin 8) (i j : Fin 1024) :
    score (fun i => ((a0 i : ℝ) : EReal)) (fun i => ((a1 i : ℝ) : EReal)) h i j
      = ((scoreR γ a0 a1 h i j : ℝ) : EReal) := by
  unfold score scoreR
  simp only [elt_coe, hγ, ← EReal.coe_mul]
  rw [← coe_sum, ← EReal.coe_mul]

/-! ### The positions -/

/-- Reducing copy `r` of position `s` gives `s` back. -/
theorem fold4_copy (r : Fin 4) (s : Fin 1024) : fold4 (copy r s) = s := by
  apply Fin.ext
  show (1024 * r.val + s.val) % 1024 = s.val
  rw [Nat.mul_add_mod, Nat.mod_eq_of_lt s.isLt]

/-! ### The two spellings agree -/

/-- A repeated row of real arrays is the direct output at the position it is a copy of: the 4096 repeated
    keys are the 1024 keys four times over. -/
theorem refRow_copy (a0 a1 : A3.Idx → ℝ) (h : Fin 8) (r : Fin 4) (s : Fin 1024) (d : Fin 32) :
    refRow (fun i => ((a0 i : ℝ) : EReal)) (fun i => ((a1 i : ℝ) : EReal)) h (copy r s) d
      = kernelOut (fun i => ((a0 i : ℝ) : EReal)) (fun i => ((a1 i : ℝ) : EReal)) h s d := by
  obtain ⟨γ, hγ⟩ := scale_real
  unfold refRow kernelOut
  rw [start_eq, zero_eq, wsumHost_bot_zero, fold4_copy]
  simp only [score_coe γ hγ, elt_coe]
  exact wsum_repeat (by decide : 4 * 1024 = 4096) (by decide) (by decide) fold4 fold4_copy
    (fun j => scoreR γ a0 a1 h s j) (fun j => eltR a0 h j d)

/-- The direct output of real arrays is a real. -/
theorem kernelOut_is_real (a0 a1 : A3.Idx → ℝ) (h : Fin 8) (s : Fin 1024) (d : Fin 32) :
    ∃ x : ℝ, kernelOut (fun i => ((a0 i : ℝ) : EReal)) (fun i => ((a1 i : ℝ) : EReal)) h s d = (x : EReal) := by
  obtain ⟨γ, hγ⟩ := scale_real
  unfold kernelOut
  rw [start_eq]
  simp only [score_coe γ hγ, elt_coe]
  exact wsum_is_real (by decide) (fun j => scoreR γ a0 a1 h s j) (fun j => eltR a0 h j d)

/-- On arrays of reals the repeated spelling of the attention output equals the direct one: each of the four
    repeated rows of a query is the direct output, a real, and the mean of four equal reals is that real. -/
theorem tiled_eq (a0 a1 : A3.Idx → ℝ) (h : Fin 8) (s : Fin 1024) (d : Fin 32) :
    refOut (fun i => ((a0 i : ℝ) : EReal)) (fun i => ((a1 i : ℝ) : EReal)) h s d
      = kernelOut (fun i => ((a0 i : ℝ) : EReal)) (fun i => ((a1 i : ℝ) : EReal)) h s d := by
  obtain ⟨x, hx⟩ := kernelOut_is_real a0 a1 h s d
  unfold refOut
  simp only [refRow_copy]
  rw [hx, zero_eq, four_eq]
  exact mean_four x

/-- The two result arrays agree on real arguments: entry by entry, by `tiled_eq`. -/
theorem Gref_eq_G (a0 a1 : A3.Idx → ℝ) :
    Gref (fun i => ((a0 i : ℝ) : EReal)) (fun i => ((a1 i : ℝ) : EReal))
      = G (fun i => ((a0 i : ℝ) : EReal)) (fun i => ((a1 i : ℝ) : EReal)) := by
  funext idx
  unfold Gref G
  exact tiled_eq a0 a1 _ _ _

end Cert.Attn

end
-- ==== Proof.Finite.lean ====
/-
  The precondition on the two argument arrays says that every entry is finite; an extended real that is finite
  is a real.

  The precondition is the conjunction, over both arrays, of "every entry's absolute value is below the value of
  the word 0x7F800000", and that word denotes the top of the extended reals.  An extended real is the bottom, the
  top or a real; the absolute value of the bottom and of the top is the top, which is not below itself, so an
  entry satisfying the precondition is a real.  Choosing that real at every index gives the two real arrays.
-/
import proofs.«169422_j56435870269919_1_alg».proof.Pre_finite_inputs
import proofs.«169422_j56435870269919_1_alg».proof.Proof.Spec
import Idealize.ShloMosaic.Lib.ReduceAll
import Idealize.ShloMosaic.PureOps.Ideal.Laws
import Idealize.ShloMosaic.Lib.ValueIdx

noncomputable section

namespace Cert.Attn.Finite

open Idealize.ShloMosaic Idealize.ShloMosaic.ValueIdx

/-- The rank-0 shape has one index. -/
instance : Subsingleton Cert.Pre_finite_inputs.S_.Idx := ⟨fun _ _ => funext fun d => d.elim0⟩

/-- The word 0x7F800000 denotes the top of the extended reals. -/
theorem inf_word : Ideal.ofBits .f32 0x7F800000#32 = ⊤ := by simp [Ideal.ofBits, Ideal.ieee]

/-- An extended real whose absolute value is strictly below the top is a real: the absolute value of the
    bottom and of the top is the top. -/
theorem real_of_abs_lt_top (x : EReal) (h : max x (-x) < ⊤) : ∃ r : ℝ, x = (r : EReal) := by
  induction x using EReal.rec with
  | bot => simp at h
  | coe r => exact ⟨r, rfl⟩
  | top => simp at h

/-- An entry that compares below the infinity word in absolute value is a real. -/
theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  by_contra hn
  simp [Ideal.cmp, hn] at h

/-- Under the precondition both argument arrays are arrays of reals. -/
theorem reals_of_pre [Cert.Pre_finite_inputs.Facts]
    (x0 x1 : (⟨⟨3, ![1, 1024, 256]⟩, .f32⟩ : BufTy).Contents (Elt Ideal))
    (hpre : Cert.Pre_finite_inputs.fn (F := Ideal) x0 x1 = (fun _ => 1#1)) :
    ∃ a0 a1 : Cert.Attn.A3.Idx → ℝ,
      x0 = (fun i => ((a0 i : ℝ) : EReal)) ∧ x1 = (fun i => ((a1 i : ℝ) : EReal)) := by
  have e := congrFun hpre ValueIdx.ix0
  dsimp only [Cert.Pre_finite_inputs.fn] at e
  unfold andi at e
  obtain ⟨e0, e1⟩ := IntOp.andi_eq_one.1 e
  have h0 : ∀ i, ∃ r : ℝ, x0 i = (r : EReal) := fun i =>
    real_of_cmp (x0 i) (Host.reduce_andi_all _ _ _ _ _ e0 i)
  have h1 : ∀ i, ∃ r : ℝ, x1 i = (r : EReal) := fun i =>
    real_of_cmp (x1 i) (Host.reduce_andi_all _ _ _ _ _ e1 i)
  choose a0 ha0 using h0
  choose a1 ha1 using h1
  exact ⟨a0, a1, funext ha0, funext ha1⟩

end Cert.Attn.Finite

end
-- ==== Proof.lean ====
/-
  Equivalence of a per-head attention kernel and a reference that repeats every query and key four times.

  Kernel: the 256 lanes of each of the 1024 positions are 8 heads of 32.  For each head the kernel forms the scores
  Q·Kᵀ times the scale (queries from the second argument, keys from the first), takes a softmax along each row, and
  multiplies the weights by the keys again, which also serve as the values; the result is laid back out lane by lane.
  Reference: every query and every key is repeated four times along the position axis, the softmax runs over the 4096
  repeated keys, and the four copies of each query's output are averaged.

  Over the extended reals the two agree when every input is a real.  A maximum over four repeats of a list is the maximum
  of the list, so the shifted exponentials e j repeat too; the reference's normaliser is 4·Λ for the kernel's Λ = ∑ e j,
  each of its weighted sums is 4·∑ (e j / (4Λ))·k j = ∑ (e j / Λ)·k j because Λ is a positive real, and the mean of four
  equal copies is the copy.  Finiteness of the inputs is what makes the scores, their maximum, the exponentials and Λ
  reals, so the precondition is used.

  The three frames are the generated ones (the reference's is its generated run with the result dropped); the idealization
  rewrote nothing, so `preserves` is trivial; `algebraic` sets the kernel's run (read off the generated frame run block by
  block) beside the reference's generated run (read one operation at a time) at the specification's result array.
-/
import proofs.«169422_j56435870269919_1_alg».proof.Defs
import proofs.«169422_j56435870269919_1_alg».proof.Proof.Gen.Kernel
import proofs.«169422_j56435870269919_1_alg».proof.Proof.Gen.Kernel.Skeleton
import proofs.«169422_j56435870269919_1_alg».proof.Proof.Gen.Kernel.Launch
import proofs.«169422_j56435870269919_1_alg».proof.Proof.Gen.Kernel.Points
import proofs.«169422_j56435870269919_1_alg».proof.Proof.Gen.Kernel.Frame
import proofs.«169422_j56435870269919_1_alg».proof.Proof.Gen.KernelIdeal
import proofs.«169422_j56435870269919_1_alg».proof.Proof.Gen.KernelIdeal.Skeleton
import proofs.«169422_j56435870269919_1_alg».proof.Proof.Gen.KernelIdeal.Launch
import proofs.«169422_j56435870269919_1_alg».proof.Proof.Gen.KernelIdeal.Points
import proofs.«169422_j56435870269919_1_alg».proof.Proof.Gen.KernelIdeal.Frame
import proofs.«169422_j56435870269919_1_alg».proof.Proof.Gen.ReferenceIdeal
import proofs.«169422_j56435870269919_1_alg».proof.Proof.Gen.ReferenceIdeal.Run
import proofs.«169422_j56435870269919_1_alg».proof.Proof.Gen.ReferenceIdeal.Read
import proofs.«169422_j56435870269919_1_alg».proof.Proof.Gen.Pre_finite_inputs
import proofs.«169422_j56435870269919_1_alg».proof.Proof.KernelValue
import proofs.«169422_j56435870269919_1_alg».proof.Proof.RefValue
import proofs.«169422_j56435870269919_1_alg».proof.Proof.Algebra
import proofs.«169422_j56435870269919_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to preserve. -/
theorem preserves : Cert.preserves_Kernel_KernelIdeal := trivial

/-- Both runs end with the result buffer at the attention output of the argument arrays: the kernel's directly, the
    reference's in its four-fold repeated spelling, which is the same array because the arguments are arrays of reals. -/
theorem algebraic : Cert.algebraic_KernelIdeal_ReferenceIdeal := by
  intro m ρ m' ρ' hpre hagree
  refine ⟨_, Cert.Attn.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2, Cert.Attn.Ref.ref_eq]
  obtain ⟨a0, a1, h0, h1⟩ := Cert.Attn.Finite.reals_of_pre _ _ (hpre c)
  rw [h0, h1]
  exact Cert.Attn.Gref_eq_G a0 a1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
